-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2048x64 .f32) (main_arg1 : FVec F S32x64 .f32) (main_arg2 : FVec F S32 .f32) (main_arg3 : FVec F S1x32 .f32) (main_arg4 : FVec F S1 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg4 main_v13 main_v16
-- ==== Kernel.lean ====
abbrev S2048x64 : Shape := ⟨2, ![2048, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S512x256 : Shape := ⟨2, ![512, 256]⟩
abbrev S4x4 : Shape := ⟨2, ![4, 4]⟩
abbrev S_ : Shape := ⟨0, ![]⟩
abbrev S4x1x4x1 : Shape := ⟨4, ![4, 1, 4, 1]⟩
abbrev S1x32x1x64 : Shape := ⟨4, ![1, 32, 1, 64]⟩
abbrev S4x32x4x64 : Shape := ⟨4, ![4, 32, 4, 64]⟩
abbrev S128x256 : Shape := ⟨2, ![128, 256]⟩
abbrev S4x32 : Shape := ⟨2, ![4, 32]⟩
abbrev S128 : Shape := ⟨1, ![128]⟩
abbrev S1x128 : Shape := ⟨2, ![1, 128]⟩
abbrev S1x1x1x32 : Shape := ⟨4, ![1, 1, 1, 32]⟩
abbrev S4x1x4x32 : Shape := ⟨4, ![4, 1, 4, 32]⟩
abbrev S4x128 : Shape := ⟨2, ![4, 128]⟩
abbrev S1x1 : Shape := ⟨2, ![1, 1]⟩
abbrev S2048x2048 : Shape := ⟨2, ![2048, 2048]⟩
abbrev S128x64 : Shape := ⟨2, ![128, 64]⟩
abbrev S32x256 : Shape := ⟨2, ![32, 256]⟩
abbrev S128x128 : Shape := ⟨2, ![128, 128]⟩
abbrev S128x1x256 : Shape := ⟨3, ![128, 1, 256]⟩
abbrev S1x32x256 : Shape := ⟨3, ![1, 32, 256]⟩
abbrev S128x32x256 : Shape := ⟨3, ![128, 32, 256]⟩
abbrev S4096x256 : Shape := ⟨2, ![4096, 256]⟩
abbrev S256x128 : Shape := ⟨2, ![256, 128]⟩
abbrev S4096x128 : Shape := ⟨2, ![4096, 128]⟩
abbrev S128x4 : Shape := ⟨2, ![128, 4]⟩
abbrev S4096x4 : Shape := ⟨2, ![4096, 4]⟩

abbrev nBuf : Space → Nat
  | .hbm => 38
  | .vmem => 10
  | .smem => 0
  | _ => 0

abbrev bufTy : (tb : Table) → Fin (tcTables nBuf tb) → BufTy
  | .hbm, ⟨0, _⟩ => ⟨S2048x64, .f32⟩
  | .hbm, ⟨1, _⟩ => ⟨S32x64, .f32⟩
  | .hbm, ⟨2, _⟩ => ⟨S32, .f32⟩
  | .hbm, ⟨3, _⟩ => ⟨S1x32, .f32⟩
  | .hbm, ⟨4, _⟩ => ⟨S1, .f32⟩
  | .hbm, ⟨5, _⟩ => ⟨S512x256, .f32⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S4x1x4x1, .f32⟩
  | .hbm, ⟨14, _⟩ => ⟨S1x32x1x64, .f32⟩
  | .hbm, ⟨15, _⟩ => ⟨S4x32x4x64, .f32⟩
  | .hbm, ⟨16, _⟩ => ⟨S4x32x4x64, .f32⟩
  | .hbm, ⟨17, _⟩ => ⟨S4x32x4x64, .f32⟩
  | .hbm, ⟨18, _⟩ => ⟨S128x256, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S1x128, .f32⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .f32⟩
  | .hbm, ⟨30, _⟩ => ⟨S4x1x4x1, .f32⟩
  | .hbm, ⟨31, _⟩ => ⟨S1x1x1x32, .f32⟩
  | .hbm, ⟨32, _⟩ => ⟨S4x1x4x32, .f32⟩
  | .hbm, ⟨33, _⟩ => ⟨S4x1x4x32, .f32⟩
  | .hbm, ⟨34, _⟩ => ⟨S4x1x4x32, .f32⟩
  | .hbm, ⟨35, _⟩ => ⟨S4x128, .f32⟩
  | .hbm, ⟨36, _⟩ => ⟨S1x1, .f32⟩
  | .hbm, ⟨37, _⟩ => ⟨S2048x2048, .f32⟩
  | .local _ .vmem, ⟨0, _⟩ => ⟨S128x64, .f32⟩
  | .local _ .vmem, ⟨1, _⟩ => ⟨S128x64, .f32⟩
  | .local _ .vmem, ⟨2, _⟩ => ⟨S32x256, .f32⟩
  | .local _ .vmem, ⟨3, _⟩ => ⟨S32x256, .f32⟩
  | .local _ .vmem, ⟨4, _⟩ => ⟨S128x256, .f32⟩
  | .local _ .vmem, ⟨5, _⟩ => ⟨S1x128, .f32⟩
  | .local _ .vmem, ⟨6, _⟩ => ⟨S4x128, .f32⟩
  | .local _ .vmem, ⟨7, _⟩ => ⟨S1x1, .f32⟩
  | .local _ .vmem, ⟨8, _⟩ => ⟨S128x128, .f32⟩
  | .local _ .vmem, ⟨9, _⟩ => ⟨S128x128, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S2048x64_S512x256 : S2048x64.ShapeCasts S512x256
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S32x64_S1x32x1x64_1_3 : S32x64.BroadcastsInDim S1x32x1x64 (![1, 3] : Fin 2 → Fin S1x32x1x64.rank)
  bcast_S4x1x4x1_S4x32x4x64_0_1_2_3 : S4x1x4x1.BroadcastsInDim S4x32x4x64 (![0, 1, 2, 3] : Fin 4 → Fin S4x32x4x64.rank)
  bcast_S1x32x1x64_S4x32x4x64_0_1_2_3 : S1x32x1x64.BroadcastsInDim S4x32x4x64 (![0, 1, 2, 3] : Fin 4 → Fin S4x32x4x64.rank)
  shapeCasts_S4x32x4x64_S128x256 : S4x32x4x64.ShapeCasts S128x256
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  bcast_S1x32_S1x1x1x32_1_3 : S1x32.BroadcastsInDim S1x1x1x32 (![1, 3] : Fin 2 → Fin S1x1x1x32.rank)
  bcast_S4x1x4x1_S4x1x4x32_0_1_2_3 : S4x1x4x1.BroadcastsInDim S4x1x4x32 (![0, 1, 2, 3] : Fin 4 → Fin S4x1x4x32.rank)
  bcast_S1x1x1x32_S4x1x4x32_0_1_2_3 : S1x1x1x32.BroadcastsInDim S4x1x4x32 (![0, 1, 2, 3] : Fin 4 → Fin S4x1x4x32.rank)
  shapeCasts_S4x1x4x32_S4x128 : S4x1x4x32.ShapeCasts S4x128
  shapeCasts_S1_S1x1 : S1.ShapeCasts S1x1
  inb_S128x64_S128x64_0_0 : ∀ a, (![0, 0] : Fin 2 → Nat) a + S128x64.size a ≤ S128x64.size a
  h_S128x64 : 0 < S128x64.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  concatenates_S128x64_S128x64_S128x64_S128x64_S128x256_d1 : Shape.Concatenates [S128x64, S128x64, S128x64, S128x64] S128x256 1
  shapeCasts_S128x256_S128x1x256 : S128x256.ShapeCasts S128x1x256
  shapeCasts_S32x256_S1x32x256 : S32x256.ShapeCasts S1x32x256
  broadcasts_S128x1x256_S128x32x256 : S128x1x256.Broadcasts S128x32x256
  broadcasts_S1x32x256_S128x32x256 : S1x32x256.Broadcasts S128x32x256
  bitsLt_bf16_f32 : FTy.bits .bf16 < FTy.bits .f32
  shapeCasts_S128x32x256_S4096x256 : S128x32x256.ShapeCasts S4096x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  transposes_S4x128_p1_0_S128x4 : S4x128.Transposes [1, 0] S128x4
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x4 : S1x1.Broadcasts S4096x4
  shapeCasts_S4096x4_S128x128 : S4096x4.ShapeCasts S128x128
  inb_S128x128_S128x128_0_0 : ∀ a, (![0, 0] : Fin 2 → Nat) a + S128x128.size a ≤ S128x128.size a
  h_S128x128 : 0 < S128x128.numel
  dot_S4096x256_S256x128_S4096x128_1_0_0_1_n_n_wf : DotDims.WF S4096x256 S256x128 S4096x128 [1] [0] [0] [1] [] []
  dot_S4096x128_S128x4_S4096x4_1_0_0_1_n_n_wf : DotDims.WF S4096x128 S128x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S2048x64.size a
  hwx0_0 : ∀ i : grid0.Coords, EltTy.bits .f32 = 32 ∨ (Rect.block (s := S2048x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S512x256.size a
  hwx0_1 : ∀ i : grid0.Coords, EltTy.bits .f32 = 32 ∨ (Rect.block (s := S512x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128.size a ≤ S4x128.size a
  hwx0_4 : ∀ i : grid0.Coords, EltTy.bits .f32 = 32 ∨ (Rect.block (s := S4x128) S4x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S2048x2048.size a
  hwx0_6 : ∀ i : grid0.Coords, EltTy.bits .f32 = 32 ∨ (Rect.block (s := S2048x2048) S128x128.size (cc0_transform_6 i) (hinb0_6 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x4_S4096x4_1_0_0_1_n_n : DotDims S4096x128 S128x4 S4096x4 where
  lhsContracting := [1]
  rhsContracting := [0]
  lhsNonContracting := [0]
  rhsNonContracting := [1]
  lhsBatch := []
  rhsBatch := []
  wf := dot_S4096x128_S128x4_S4096x4_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S4x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x64 : Shape := ⟨2, ![2048, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x2048x64 : Shape := ⟨3, ![1, 2048, 64]⟩
abbrev S2048x1x64 : Shape := ⟨3, ![2048, 1, 64]⟩
abbrev S2048x2048x64 : Shape := ⟨3, ![2048, 2048, 64]⟩
abbrev S2048x2048x32 : Shape := ⟨3, ![2048, 2048, 32]⟩
abbrev S1x1x32 : Shape := ⟨3, ![1, 1, 32]⟩
abbrev S_ : Shape := ⟨0, ![]⟩
abbrev S2048x2048x1 : Shape := ⟨3, ![2048, 2048, 1]⟩
abbrev S1x1x1 : Shape := ⟨3, ![1, 1, 1]⟩
abbrev S2048x2048 : Shape := ⟨2, ![2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S32x64, .f32⟩
  | .hbm, ⟨2, _⟩ => ⟨S32, .f32⟩
  | .hbm, ⟨3, _⟩ => ⟨S1x32, .f32⟩
  | .hbm, ⟨4, _⟩ => ⟨S1, .f32⟩
  | .hbm, ⟨5, _⟩ => ⟨S1x2048x64, .f32⟩
  | .hbm, ⟨6, _⟩ => ⟨S2048x1x64, .f32⟩
  | .hbm, ⟨7, _⟩ => ⟨S2048x2048x64, .f32⟩
  | .hbm, ⟨8, _⟩ => ⟨S2048x2048x64, .f32⟩
  | .hbm, ⟨9, _⟩ => ⟨S2048x2048x64, .f32⟩
  | .hbm, ⟨10, _⟩ => ⟨S2048x2048x64, .f32⟩
  | .hbm, ⟨11, _⟩ => ⟨S2048x2048x32, .f32⟩
  | .hbm, ⟨12, _⟩ => ⟨S1x1x32, .f32⟩
  | .hbm, ⟨13, _⟩ => ⟨S2048x2048x32, .f32⟩
  | .hbm, ⟨14, _⟩ => ⟨S2048x2048x32, .f32⟩
  | .hbm, ⟨15, _⟩ => ⟨S_, .f32⟩
  | .hbm, ⟨16, _⟩ => ⟨S2048x2048x32, .f32⟩
  | .hbm, ⟨17, _⟩ => ⟨S2048x2048x32, .i1⟩
  | .hbm, ⟨18, _⟩ => ⟨S_, .f32⟩
  | .hbm, ⟨19, _⟩ => ⟨S2048x2048x32, .f32⟩
  | .hbm, ⟨20, _⟩ => ⟨S2048x2048x32, .f32⟩
  | .hbm, ⟨21, _⟩ => ⟨S2048x2048x32, .f32⟩
  | .hbm, ⟨22, _⟩ => ⟨S2048x2048x1, .f32⟩
  | .hbm, ⟨23, _⟩ => ⟨S1x1x1, .f32⟩
  | .hbm, ⟨24, _⟩ => ⟨S2048x2048x1, .f32⟩
  | .hbm, ⟨25, _⟩ => ⟨S2048x2048x1, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S2048x64_S1x2048x64_1_2 : S2048x64.BroadcastsInDim S1x2048x64 (![1, 2] : Fin 2 → Fin S1x2048x64.rank)
  bcast_S2048x64_S2048x1x64_0_2 : S2048x64.BroadcastsInDim S2048x1x64 (![0, 2] : Fin 2 → Fin S2048x1x64.rank)
  bcast_S1x2048x64_S2048x2048x64_0_1_2 : S1x2048x64.BroadcastsInDim S2048x2048x64 (![0, 1, 2] : Fin 3 → Fin S2048x2048x64.rank)
  bcast_S2048x1x64_S2048x2048x64_0_1_2 : S2048x1x64.BroadcastsInDim S2048x2048x64 (![0, 1, 2] : Fin 3 → Fin S2048x2048x64.rank)
  bcast_S32_S1x1x32_2 : S32.BroadcastsInDim S1x1x32 (![2] : Fin 1 → Fin S1x1x32.rank)
  bcast_S1x1x32_S2048x2048x32_0_1_2 : S1x1x32.BroadcastsInDim S2048x2048x32 (![0, 1, 2] : Fin 3 → Fin S2048x2048x32.rank)
  bcast_S_S2048x2048x32 : S_.BroadcastsInDim S2048x2048x32 (![] : Fin 0 → Fin S2048x2048x32.rank)
  bcast_S1_S1x1x1_2 : S1.BroadcastsInDim S1x1x1 (![2] : Fin 1 → Fin S1x1x1.rank)
  bcast_S1x1x1_S2048x2048x1_0_1_2 : S1x1x1.BroadcastsInDim S2048x2048x1 (![0, 1, 2] : Fin 3 → Fin S2048x2048x1.rank)
  shapeCasts_S2048x2048x1_S2048x2048 : S2048x2048x1.ShapeCasts S2048x2048
  bcast_S_S2048x2048 : S_.BroadcastsInDim S2048x2048 (![] : Fin 0 → Fin S2048x2048.rank)
  dot_S2048x2048x64_S32x64_S2048x2048x32_2_1_01_0_n_n_wf : DotDims.WF S2048x2048x64 S32x64 S2048x2048x32 [2] [1] [0, 1] [0] [] []
  dot_S2048x2048x32_S1x32_S2048x2048x1_2_1_01_0_n_n_wf : DotDims.WF S2048x2048x32 S1x32 S2048x2048x1 [2] [1] [0, 1] [0] [] []

variable [Facts₀]

def dot_S2048x2048x64_S32x64_S2048x2048x32_2_1_01_0_n_n : DotDims S2048x2048x64 S32x64 S2048x2048x32 where
  lhsContracting := [2]
  rhsContracting := [1]
  lhsNonContracting := [0, 1]
  rhsNonContracting := [0]
  lhsBatch := []
  rhsBatch := []
  wf := dot_S2048x2048x64_S32x64_S2048x2048x32_2_1_01_0_n_n_wf
def dot_S2048x2048x32_S1x32_S2048x2048x1_2_1_01_0_n_n : DotDims S2048x2048x32 S1x32 S2048x2048x1 where
  lhsContracting := [2]
  rhsContracting := [1]
  lhsNonContracting := [0, 1]
  rhsNonContracting := [0]
  lhsBatch := []
  rhsBatch := []
  wf := dot_S2048x2048x32_S1x32_S2048x2048x1_2_1_01_0_n_n_wf

class Facts : Prop extends Facts₀ where

variable [Facts]
-- ==== Proof.LibBlockSum.lean ====
/-
  Two small laws met where one packed (block-diagonal) matrix product stands for several plain ones.
  `sum_eq_sum_block`: in any additive commutative monoid, a finite sum over `P·n` positions of a function that vanishes
  outside the `q`-th run of `n` consecutive positions is the sum over that run — a row of a block-diagonal matrix meets
  one diagonal block only.
  `ereal_abs_sub_comm`: `|a − b| = |b − a|` on the extended reals, the absolute value read as `max x (−x)`; no finiteness
  is needed, since `⊤ − ⊤` and `⊥ − ⊥` are `⊥` in both orders.
-/
import Idealize.ShloMosaic.PureOps.Ideal
import Idealize.ShloMosaic.PureOps.Ideal.Laws

namespace Idealize.ShloMosaic.BlockSum

/-- `|a − b| = |b − a|`, the absolute value read as `max x (−x)`: on the reals by `−(a − b) = b − a`; when an operand is
    infinite both sides are `⊤`, except `⊤ − ⊤` and `⊥ − ⊥`, which are `⊥` in both orders. -/
theorem ereal_abs_sub_comm (a b : EReal) : max (a - b) (-(a - b)) = max (b - a) (-(b - a)) := by
  induction a using EReal.rec <;> induction b using EReal.rec
  all_goals first
    | rfl
    | (rw [← EReal.coe_sub, ← EReal.coe_sub, ← EReal.coe_neg, ← EReal.coe_neg, neg_sub, neg_sub, max_comm])
    | simp

/-- A sum over `P·n` positions of a function that vanishes outside the `q`-th run of `n` consecutive positions is the
    sum over that run. -/
theorem sum_eq_sum_block {M : Type*} [AddCommMonoid M] (P n N : ℕ) (hN : P * n = N) (q : Fin P) (F : Fin N → M)
    (h0 : ∀ x : Fin N, x.val / n ≠ q.val → F x = 0) :
    ∑ x, F x = ∑ d : Fin n, F ⟨q.val * n + d.val, by
      have := q.isLt; have := d.isLt
      calc q.val * n + d.val < q.val * n + n := by omega
        _ = (q.val + 1) * n := by ring
        _ ≤ P * n := Nat.mul_le_mul_right n (by omega)
        _ = N := hN⟩ := by
  subst hN
  rw [← Equiv.sum_comp finProdFinEquiv F, Fintype.sum_prod_type, Finset.sum_eq_single q]
  · refine Finset.sum_congr rfl fun d _ => congrArg F (Fin.ext ?_)
    show d.val + n * q.val = q.val * n + d.val
    rw [Nat.mul_comm, Nat.add_comm]
  · intro p _ hp
    refine Finset.sum_eq_zero fun d _ => h0 _ ?_
    show (d.val + n * p.val) / n ≠ q.val
    have hn : 0 < n := Nat.pos_of_ne_zero fun h => by have := d.isLt; omega
    rw [Nat.add_mul_div_left _ _ hn, Nat.div_eq_of_lt d.isLt, Nat.zero_add]
    exact fun h => hp (Fin.ext h)
  · intro h; exact absurd (Finset.mem_univ q) h

end Idealize.ShloMosaic.BlockSum
-- ==== Proof.PairNetSpec.lean ====
/-
  The all-pairs similarity network over the extended reals, as ONE function of the five argument arrays:
  for nodes `i`, `j` of the 2048 rows of `h`,
    energy i j = Σ_{k<32} leaky (Σ_{d<64} |h[j,d] − h[i,d]| · W1[k,d] + b1[k]) · W2[0,k] + b2[0],
    result i j = 1 / (1 + exp (−energy i j)),
  `leaky x = x` where `0 ≤ x` and `0.2·x` elsewhere (the slope kept as its binary word).
  Beside it the PACKED arrangement of the same sums: four consecutive rows of `h` laid side by side as one row of 256,
  the first weight matrix repeated four times down the diagonal of a 128 × 256 matrix (zero off the diagonal blocks),
  the second likewise in a 4 × 128 matrix. A sum over the 256 (or 128) packed columns against one row of such a
  block-diagonal matrix keeps only the one diagonal block the row meets — the other terms are products with zero, and
  `x · 0 = 0` for every extended real `x` — so the packed sums are the plain ones: `packed_eq`. The two orders of the
  difference under the absolute value agree on all extended reals (`ereal_abs_sub_comm`). No finiteness is used.
-/
import Idealize.ShloMosaic.PureOps.Ideal
import Idealize.ShloMosaic.PureOps.Ideal.Laws
import Idealize.ShloMosaic.Lib.ValueIdx
import proofs.«145179_j89601607729551_2_alg».proof.Proof.LibBlockSum

noncomputable section

namespace Cert.PairNet

open Idealize.ShloMosaic Idealize.ShloMosaic.ValueIdx Idealize.ShloMosaic.BlockSum

/-! ## The network -/

/-- An `a × b` matrix of extended reals. -/
abbrev Mat (a b : ℕ) : Type := (⟨2, ![a, b]⟩ : Shape).Idx → EReal
/-- A vector of `a` extended reals. -/
abbrev Vect (a : ℕ) : Type := (⟨1, ![a]⟩ : Shape).Idx → EReal

/-- The leaky rectifier: `x` where `0 ≤ x`, the slope word `0x3E4CCCCD` (the float nearest 0.2) times `x` elsewhere. -/
def leaky (x : EReal) : EReal :=
  Scalar.select (Ideal.cmp .oge x (Ideal.ofBits .f32 0x00000000#32)) x (Ideal.ofBits .f32 0x3E4CCCCD#32 * x)

/-- The absolute difference of two entries, as `max x (−x)` of their difference. -/
def adiff (u v : EReal) : EReal := max (u - v) (-(u - v))

/-- Hidden unit `k` of the pair `(i, j)`. -/
def hidden (h : Mat 2048 64) (W1 : Mat 32 64) (b1 : Vect 32) (i j : Fin 2048) (k : Fin 32) : EReal :=
  leaky ((∑ d : Fin 64, adiff (h (ix2 j d)) (h (ix2 i d)) * W1 (ix2 k d)) + b1 (ix1 k))

/-- The pair's energy. -/
def energy (h : Mat 2048 64) (W1 : Mat 32 64) (b1 : Vect 32) (W2 : Mat 1 32) (b2 : Vect 1) (i j : Fin 2048) : EReal :=
  (∑ k : Fin 32, hidden h W1 b1 i j k * W2 (ix2 0 k)) + b2 (ix1 0)

/-- The logistic function spelt with the word of `1.0`: `1 / (1 + exp (−e))`. -/
def squash (e : EReal) : EReal :=
  Ideal.div (Ideal.ofBits .f32 0x3F800000#32) (Ideal.ofBits .f32 0x3F800000#32 + Ideal.exp (-e))

/-- The result array: entry `(i, j)` is the squashed energy of the pair. -/
def result (h : Mat 2048 64) (W1 : Mat 32 64) (b1 : Vect 32) (W2 : Mat 1 32) (b2 : Vect 1) : Mat 2048 2048 :=
  fun i => squash (energy h W1 b1 W2 b2 (i 0) (i 1))

/-- The word `0x3F800000` is the real number one. -/
theorem ofBits_one : Ideal.ofBits .f32 0x3F800000#32 = 1 := by
  simp [Ideal.ofBits, Ideal.ieee, -EReal.coe_mul]; norm_num

/-- The one-operation logistic is the spelt-out one. -/
theorem logistic_eq_squash (e : EReal) : Ideal.logistic e = squash e := by
  unfold squash; rw [ofBits_one]; rfl

/-! ## The packed arrangement -/

/-- The identity pattern: one on the diagonal, zero off it. -/
def eye (q p : ℕ) : EReal := if q = p then 1 else 0

/-- Four consecutive rows of `h` side by side: row `R`, column `x` is `h[4R + x/64, x mod 64]`. -/
def rows4 (h : Mat 2048 64) (R : Fin 512) (x : Fin 256) : EReal :=
  h (ix2 ⟨4 * R.val + x.val / 64, by have := R.isLt; have := x.isLt; omega⟩ ⟨x.val % 64, Nat.mod_lt _ (by decide)⟩)

/-- `W1` four times down the diagonal: row `y`, column `x` is `W1[y mod 32, x mod 64]` in diagonal block `y/32 = x/64`, zero elsewhere. -/
def diag1 (W1 : Mat 32 64) (y : Fin 128) (x : Fin 256) : EReal :=
  eye (y.val / 32) (x.val / 64) * W1 (ix2 ⟨y.val % 32, Nat.mod_lt _ (by decide)⟩ ⟨x.val % 64, Nat.mod_lt _ (by decide)⟩)

/-- `b1` repeated four times. -/
def tile1 (b1 : Vect 32) (y : Fin 128) : EReal := b1 (ix1 ⟨y.val % 32, Nat.mod_lt _ (by decide)⟩)

/-- `W2`'s one row four times down the diagonal of a `4 × 128` matrix. -/
def diag2 (W2 : Mat 1 32) (o : Fin 4) (y : Fin 128) : EReal :=
  eye o.val (y.val / 32) * W2 (ix2 0 ⟨y.val % 32, Nat.mod_lt _ (by decide)⟩)

/-- The packed hidden layer: column `y` of the row for node `i` against packed row `R`. -/
def packedHidden (h : Mat 2048 64) (W1 : Mat 32 64) (b1 : Vect 32) (i : Fin 2048) (R : Fin 512) (y : Fin 128) : EReal :=
  leaky ((∑ x : Fin 256, adiff (h (ix2 i ⟨x.val % 64, Nat.mod_lt _ (by decide)⟩)) (rows4 h R x) * diag1 W1 y x) + tile1 b1 y)

/-- The packed energy of node `i` against the `o`-th of the four rows packed in `R`. -/
def packedEnergy (h : Mat 2048 64) (W1 : Mat 32 64) (b1 : Vect 32) (W2 : Mat 1 32) (b2 : Vect 1)
    (i : Fin 2048) (R : Fin 512) (o : Fin 4) : EReal :=
  (∑ y : Fin 128, packedHidden h W1 b1 i R y * diag2 W2 o y) + b2 (ix1 0)

/-- The packed hidden unit in diagonal block `q`, position `k`, is the plain hidden unit `k` of the pair `(i, 4R + q)`. -/
theorem packedHidden_eq (h : Mat 2048 64) (W1 : Mat 32 64) (b1 : Vect 32) (i : Fin 2048) (R : Fin 512) (q : Fin 4) (k : Fin 32) :
    packedHidden h W1 b1 i R ⟨q.val * 32 + k.val, by have := q.isLt; have := k.isLt; omega⟩
      = hidden h W1 b1 i ⟨4 * R.val + q.val, by have := R.isLt; have := q.isLt; omega⟩ k := by
  have hq := q.isLt
  have hk := k.isLt
  have hy1 : (q.val * 32 + k.val) / 32 = q.val := by omega
  have hy2 : (q.val * 32 + k.val) % 32 = k.val := by omega
  unfold packedHidden hidden
  congr 1
  congr 1
  · rw [sum_eq_sum_block 4 64 256 rfl q]
    · refine Finset.sum_congr rfl fun d _ => ?_
      have hd := d.isLt
      have hx1 : (q.val * 64 + d.val) / 64 = q.val := by omega
      have hx2 : (q.val * 64 + d.val) % 64 = d.val := by omega
      unfold diag1 rows4 eye
      simp only [hx1, hx2, hy1, hy2, if_true, one_mul]
      unfold adiff
      rw [ereal_abs_sub_comm]
    · intro x hx
      unfold diag1 eye
      simp only [hy1]
      rw [if_neg (fun e => hx e.symm), zero_mul, mul_zero]
  · unfold tile1
    simp only [hy2]

/-- The packed energy is the plain energy of the pair `(i, 4R + o)`. -/
theorem packed_eq (h : Mat 2048 64) (W1 : Mat 32 64) (b1 : Vect 32) (W2 : Mat 1 32) (b2 : Vect 1)
    (i : Fin 2048) (R : Fin 512) (o : Fin 4) :
    packedEnergy h W1 b1 W2 b2 i R o
      = energy h W1 b1 W2 b2 i ⟨4 * R.val + o.val, by have := R.isLt; have := o.isLt; omega⟩ := by
  have ho := o.isLt
  unfold packedEnergy energy
  congr 1
  rw [sum_eq_sum_block 4 32 128 rfl o]
  · refine Finset.sum_congr rfl fun k _ => ?_
    have hk := k.isLt
    have hy1 : (o.val * 32 + k.val) / 32 = o.val := by omega
    have hy2 : (o.val * 32 + k.val) % 32 = k.val := by omega
    rw [packedHidden_eq]
    unfold diag2 eye
    simp only [hy1, hy2, if_true, one_mul]
  · intro y hy
    unfold diag2 eye
    rw [if_neg (fun e => hy e.symm), zero_mul, mul_zero]

end Cert.PairNet

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.KernelBody.lean ====
/-
  The kernel body's one stored value, read at an index of its 128 × 128 block. The body forms, for 128 rows `a` of
  one operand and 32 packed rows `r` of the other, the 4096 × 256 matrix of absolute differences (row `32a + r`,
  column `x`: the first operand's row `a` repeated four times across, minus the packed row), multiplies it by the
  transposed 128 × 256 weight block, adds the bias row, applies the leaky rectifier, multiplies by the transposed 4 × 128
  block, adds the scalar bias, re-lays the 4096 × 4 result as 128 × 128 (entry `(a, 4r + o)` is entry `(32a + r, o)`) and
  applies the logistic function. Each matrix product into the zero accumulator is the sum over the contracted coordinate;
  a change of float format is the identity.
-/
import proofs.«145179_j89601607729551_2_alg».proof.Proof.Gen.KernelIdeal.Skeleton
import proofs.«145179_j89601607729551_2_alg».proof.Proof.PairNetSpec
import proofs.«145179_j89601607729551_2_alg».proof.Proof.LibPlainDot
import Idealize.ShloMosaic.Lib.Pipeline.Value
import Idealize.ShloMosaic.Lib.ValueIdx
import Idealize.ShloMosaic.Lib.ValueLayout

noncomputable section

namespace Cert.PairNet.Body

open Cert.KernelIdeal Cert.KernelIdeal.Gen Idealize.ShloMosaic Idealize.ShloMosaic.ValueIdx Cert.PairNet

variable (x0 : Vec Ideal S128x64 .f32) (x1 : Vec Ideal S32x256 .f32) (x2 : Vec Ideal S128x256 .f32)
  (x3 : Vec Ideal S1x128 .f32) (x4 : Vec Ideal S4x128 .f32) (x5 : Vec Ideal S1x1 .f32)

/-! ## The absolute differences -/

/-- The matrix of absolute differences, rows `(a, r)` merged. -/
def diffs : FVec Ideal S4096x256 .bf16 :=
  shapeCast S4096x256 (truncf .bf16 (absf (subf
    (broadcastTo S128x32x256 (shapeCast S128x1x256 (concatenate S128x256 1 [⟨S128x64, x0⟩, ⟨S128x64, x0⟩, ⟨S128x64, x0⟩, ⟨S128x64, x0⟩] concatenates_S128x64_S128x64_S128x64_S128x64_S128x256_d1) shapeCasts_S128x256_S128x1x256) broadcasts_S128x1x256_S128x32x256)
    (broadcastTo S128x32x256 (shapeCast S1x32x256 (shapeCast S32x256 x1 shapeCasts_S32x256_S32x256) shapeCasts_S32x256_S1x32x256) broadcasts_S1x32x256_S128x32x256))) bitsLt_bf16_f32) shapeCasts_S128x32x256_S4096x256

/-- The first operand's row repeated four times across, then along a new middle axis: at `(a, r, x)` it is the row's
    entry `x mod 64`. -/
theorem tiled_apply (a : Fin 128) (r : Fin 32) (x : Fin 256) :
    broadcastTo S128x32x256 (shapeCast S128x1x256 (concatenate S128x256 1 [⟨S128x64, x0⟩, ⟨S128x64, x0⟩, ⟨S128x64, x0⟩, ⟨S128x64, x0⟩] concatenates_S128x64_S128x64_S128x64_S128x64_S128x256_d1) shapeCasts_S128x256_S128x1x256) broadcasts_S128x1x256_S128x32x256 (ix3 a r x)
      = x0 (ix2 a ⟨x.val % 64, Nat.mod_lt _ (by decide)⟩) := by
  refine (broadcastTo_apply _ _ (ix3 a r x) (ix3 a (0 : Fin 1) x) (fun ax => ?_)).trans ?_
  · match ax with
    | ⟨0, _⟩ => rfl
    | ⟨1, _⟩ => rfl
    | ⟨2, _⟩ => rfl
  refine (shapeCast_apply _ _ (ix3 a (0 : Fin 1) x) (ix2 a x) ?_).trans ?_
  · rw [Shape.rowMajor_val_two, Shape.rowMajor_val_three]
    show a.val * 256 + x.val = (a.val * 1 + 0) * 256 + x.val
    omega
  refine concatenate_replicate_apply (t := S128x256) (s₁ := S128x64) (1 : Fin 2) 4 x0 concatenates_S128x64_S128x64_S128x64_S128x64_S128x256_d1 rfl (ix2 a x)
    (ix2 a ⟨x.val % 64, Nat.mod_lt _ (by decide)⟩) rfl (fun b hb => ?_)
  match b with
  | ⟨0, _⟩ => rfl
  | ⟨1, _⟩ => exact absurd rfl hb

/-- The packed rows along a new leading axis: at `(a, r, x)` the packed row `r` at `x`. -/
theorem packedRows_apply (a : Fin 128) (r : Fin 32) (x : Fin 256) :
    broadcastTo S128x32x256 (shapeCast S1x32x256 (shapeCast S32x256 x1 shapeCasts_S32x256_S32x256) shapeCasts_S32x256_S1x32x256) broadcasts_S1x32x256_S128x32x256 (ix3 a r x)
      = x1 (ix2 r x) := by
  refine (broadcastTo_apply _ _ (ix3 a r x) (ix3 (0 : Fin 1) r x) (fun ax => ?_)).trans ?_
  · match ax with
    | ⟨0, _⟩ => rfl
    | ⟨1, _⟩ => rfl
    | ⟨2, _⟩ => rfl
  refine (shapeCast_ab_1ab_apply _ _ (0 : Fin 1) r x).trans ?_
  rw [shapeCast_self]

theorem diffs_apply (a : Fin 128) (r : Fin 32) (x : Fin 256) :
    diffs x0 x1 (ix2 ⟨32 * a.val + r.val, by have := a.isLt; have := r.isLt; omega⟩ x)
      = adiff (x0 (ix2 a ⟨x.val % 64, Nat.mod_lt _ (by decide)⟩)) (x1 (ix2 r x)) := by
  unfold diffs
  refine (shapeCast_apply _ _ _ (ix3 a r x) ?_).trans ?_
  · rw [Shape.rowMajor_val_three, Shape.rowMajor_val_two]
    show (a.val * 32 + r.val) * 256 + x.val = (32 * a.val + r.val) * 256 + x.val
    omega
  show adiff (broadcastTo S128x32x256 _ _ (ix3 a r x)) (broadcastTo S128x32x256 _ _ (ix3 a r x)) = _
  rw [tiled_apply, packedRows_apply]

/-! ## The hidden layer -/

/-- The first product plus the bias row. -/
def pre : FVec Ideal S4096x128 .f32 :=
  addf (matmul dot_S4096x256_S256x128_S4096x128_1_0_0_1_n_n none (diffs x0 x1)
      (transpose S256x128 [1, 0] (truncf .bf16 (shapeCast S128x256 x2 shapeCasts_S128x256_S128x256) bitsLt_bf16_f32) transposes_S128x256_p1_0_S256x128)
      (constant S4096x128 .f32 0x00000000#32))
    (broadcastTo S4096x128 (shapeCast S1x128 x3 shapeCasts_S1x128_S1x128) broadcasts_S1x128_S4096x128)

theorem pre_apply (a : Fin 128) (r : Fin 32) (y : Fin 128) :
    pre x0 x1 x2 x3 (ix2 ⟨32 * a.val + r.val, by have := a.isLt; have := r.isLt; omega⟩ y)
      = (∑ x : Fin 256, adiff (x0 (ix2 a ⟨x.val % 64, Nat.mod_lt _ (by decide)⟩)) (x1 (ix2 r x)) * x2 (ix2 y x)) + x3 (ix2 (0 : Fin 1) y) := by
  unfold pre
  rw [addf_apply]
  congr 1
  · refine (PlainDot.matmul_apply_ix2 (M := 4096) (K := 256) (N := 128) none _ _ _ y).trans ?_
    refine Finset.sum_congr rfl fun x _ => ?_
    rw [diffs_apply]
    congr 1
    refine (transpose_ix2_apply _ _ x y).trans ?_
    rw [truncf_apply, shapeCast_self]
  · refine (broadcastTo_1b_ab_apply _ _ _ y).trans ?_
    rw [shapeCast_self]

/-- The rectified hidden layer. -/
def hid : FVec Ideal S4096x128 .bf16 :=
  truncf .bf16 (select (cmpf .oge (pre x0 x1 x2 x3) (broadcast S4096x128 (Scalar.ofBits .f32 0x00000000#32)))
    (pre x0 x1 x2 x3) (mulf (broadcast S4096x128 (Scalar.ofBits .f32 0x3E4CCCCD#32)) (pre x0 x1 x2 x3))) bitsLt_bf16_f32

theorem hid_apply (i : S4096x128.Idx) : hid x0 x1 x2 x3 i = leaky (pre x0 x1 x2 x3 i) := by
  unfold hid leaky
  generalize pre x0 x1 x2 x3 = p
  rfl

/-! ## The energies and the stored value -/

/-- The second product plus the scalar bias. -/
def energies : FVec Ideal S4096x4 .f32 :=
  addf (matmul dot_S4096x128_S128x4_S4096x4_1_0_0_1_n_n none (hid x0 x1 x2 x3)
      (transpose S128x4 [1, 0] (truncf .bf16 (shapeCast S4x128 x4 shapeCasts_S4x128_S4x128) bitsLt_bf16_f32) transposes_S4x128_p1_0_S128x4)
      (constant S4096x4 .f32 0x00000000#32))
    (broadcastTo S4096x4 (shapeCast S1x1 x5 shapeCasts_S1x1_S1x1) broadcasts_S1x1_S4096x4)

theorem energies_apply (a : Fin 128) (r : Fin 32) (o : Fin 4) :
    energies x0 x1 x2 x3 x4 x5 (ix2 ⟨32 * a.val + r.val, by have := a.isLt; have := r.isLt; omega⟩ o)
      = (∑ y : Fin 128, leaky ((∑ x : Fin 256, adiff (x0 (ix2 a ⟨x.val % 64, Nat.mod_lt _ (by decide)⟩)) (x1 (ix2 r x)) * x2 (ix2 y x)) + x3 (ix2 (0 : Fin 1) y)) * x4 (ix2 o y))
        + x5 (ix2 (0 : Fin 1) (0 : Fin 1)) := by
  unfold energies
  rw [addf_apply]
  congr 1
  · refine (PlainDot.matmul_apply_ix2 (M := 4096) (K := 128) (N := 4) none _ _ _ o).trans ?_
    refine Finset.sum_congr rfl fun y _ => ?_
    rw [hid_apply, pre_apply]
    congr 1
    refine (transpose_ix2_apply _ _ y o).trans ?_
    rw [truncf_apply, shapeCast_self]
  · refine (broadcastTo_apply _ _ _ (ix2 (0 : Fin 1) (0 : Fin 1)) (fun ax => ?_)).trans ?_
    · match ax with
      | ⟨0, _⟩ => rfl
      | ⟨1, _⟩ => rfl
    rw [shapeCast_self]

/-- The body's stored value is the logistic function of the re-laid energies. -/
theorem pay_eq : k0_pay1 x0 x1 x2 x3 x4 x5
    = logistic (shapeCast S128x128 (energies x0 x1 x2 x3 x4 x5) shapeCasts_S4096x4_S128x128) := rfl

/-- The stored value at `(a, 4r + o)`. -/
theorem pay_apply (a : Fin 128) (r : Fin 32) (o : Fin 4) :
    k0_pay1 x0 x1 x2 x3 x4 x5 (ix2 a ⟨4 * r.val + o.val, by have := r.isLt; have := o.isLt; omega⟩)
      = squash ((∑ y : Fin 128, leaky ((∑ x : Fin 256, adiff (x0 (ix2 a ⟨x.val % 64, Nat.mod_lt _ (by decide)⟩)) (x1 (ix2 r x)) * x2 (ix2 y x)) + x3 (ix2 (0 : Fin 1) y)) * x4 (ix2 o y))
        + x5 (ix2 (0 : Fin 1) (0 : Fin 1))) := by
  rw [pay_eq]
  refine Eq.trans ?_ (congrArg squash (energies_apply x0 x1 x2 x3 x4 x5 a r o))
  refine Eq.trans ?_ (logistic_eq_squash _)
  refine congrArg Ideal.logistic (shapeCast_apply (s := S4096x4) (t := S128x128) _ _ _ _ ?_)
  rw [Shape.rowMajor_val_two, Shape.rowMajor_val_two]
  show (32 * a.val + r.val) * 4 + o.val = a.val * 128 + (4 * r.val + o.val)
  omega

/-- The stored value at any `(a, cc)`: the packed row is `cc / 4` and the position inside it `cc mod 4`. -/
theorem pay_apply_div (a cc : Fin 128) :
    k0_pay1 x0 x1 x2 x3 x4 x5 (ix2 a cc)
      = squash ((∑ y : Fin 128, leaky ((∑ x : Fin 256, adiff (x0 (ix2 a ⟨x.val % 64, Nat.mod_lt _ (by decide)⟩))
            (x1 (ix2 (⟨cc.val / 4, by have := cc.isLt; omega⟩ : Fin 32) x)) * x2 (ix2 y x)) + x3 (ix2 (0 : Fin 1) y))
          * x4 (ix2 (⟨cc.val % 4, Nat.mod_lt _ (by decide)⟩ : Fin 4) y))
        + x5 (ix2 (0 : Fin 1) (0 : Fin 1))) := by
  have e : ix2 a cc = ix2 a (⟨4 * (⟨cc.val / 4, by have := cc.isLt; omega⟩ : Fin 32).val
      + (⟨cc.val % 4, Nat.mod_lt _ (by decide)⟩ : Fin 4).val, by have := cc.isLt; show 4 * (cc.val / 4) + cc.val % 4 < 128; omega⟩ : Fin 128) :=
    congrArg (ix2 a) (Fin.ext (by show cc.val = 4 * (cc.val / 4) + cc.val % 4; omega))
  rw [e]
  exact pay_apply x0 x1 x2 x3 x4 x5 a _ _

/-- When the six loaded blocks are: rows `128·ti …` of `h`; packed rows `32·tj …` of the re-laid `h`; the two block-diagonal
    matrices; the repeated bias row; the scalar bias — the stored value at `(a, cc)` is the network's result for the pair
    `(128·ti + a, 128·tj + cc)`: the packed sums collapse to the plain ones (`packed_eq`). -/
theorem pay_block (h : Mat 2048 64) (W1 : Mat 32 64) (b1 : Vect 32) (W2 : Mat 1 32) (b2 : Vect 1)
    (ti tj : ℕ) (hti : ti < 16) (htj : tj < 16)
    (h0 : ∀ (a : Fin 128) (d : Fin 64), x0 (ix2 a d) = h (ix2 ⟨128 * ti + a.val, by have := a.isLt; omega⟩ d))
    (h1 : ∀ (r : Fin 32) (x : Fin 256), x1 (ix2 r x) = rows4 h ⟨32 * tj + r.val, by have := r.isLt; omega⟩ x)
    (h2 : ∀ (y : Fin 128) (x : Fin 256), x2 (ix2 y x) = diag1 W1 y x)
    (h3 : ∀ y : Fin 128, x3 (ix2 (0 : Fin 1) y) = tile1 b1 y)
    (h4 : ∀ (o : Fin 4) (y : Fin 128), x4 (ix2 o y) = diag2 W2 o y)
    (h5 : x5 (ix2 (0 : Fin 1) (0 : Fin 1)) = b2 (ix1 (0 : Fin 1)))
    (a cc : Fin 128) :
    k0_pay1 x0 x1 x2 x3 x4 x5 (ix2 a cc)
      = result h W1 b1 W2 b2 (ix2 ⟨128 * ti + a.val, by have := a.isLt; omega⟩ ⟨128 * tj + cc.val, by have := cc.isLt; omega⟩) := by
  have hcc := cc.isLt
  rw [pay_apply_div]
  simp only [h0, h1, h2, h3, h4, h5]
  show squash (packedEnergy h W1 b1 W2 b2 ⟨128 * ti + a.val, by have := a.isLt; omega⟩
      ⟨32 * tj + cc.val / 4, by omega⟩ ⟨cc.val % 4, Nat.mod_lt _ (by decide)⟩) = _
  rw [packed_eq]
  show _ = squash (energy h W1 b1 W2 b2 _ _)
  congr 2
  exact Fin.ext (by show 4 * (32 * tj + cc.val / 4) + cc.val % 4 = 128 * tj + cc.val; omega)

end Cert.PairNet.Body

end
-- ==== Proof.KernelOperands.lean ====
/-
  What the host operations before the kernel launch leave in the five arrays the launch stages beside `h` itself, each read
  at an index given by coordinates:
  the 512 × 256 re-laying of `h` (four consecutive rows side by side), the Kronecker product of the 4 × 4 identity
  pattern with `W1` (a 128 × 256 block-diagonal matrix), `b1` repeated four times as one row of 128, the Kronecker product
  of the identity pattern with `W2`'s one row (4 × 128), and `b2` as a 1 × 1 matrix. The identity pattern is the
  comparison of a row counter with a column counter converted to a float: one on the diagonal, zero off it.
-/
import proofs.«145179_j89601607729551_2_alg».proof.Proof.Gen.KernelIdeal.Frame
import proofs.«145179_j89601607729551_2_alg».proof.Proof.PairNetSpec
import Idealize.ShloMosaic.Lib.StableHlo.Run
import Idealize.ShloMosaic.Lib.Pipeline.Value
import Idealize.ShloMosaic.Lib.ValueIdx
import Idealize.ShloMosaic.Lib.ValueLayout

noncomputable section

namespace Cert.PairNet.Operands

open Cert.KernelIdeal Cert.KernelIdeal.Gen Idealize.ShloMosaic Idealize.ShloMosaic.TcCoe Idealize.SL.Sem
  Idealize.ShloMosaic.StableHlo Idealize.ShloMosaic.ValueIdx Cert.PairNet

/-! ## The identity pattern -/

/-- The 4 × 4 identity pattern as the host computes it. -/
def eyeV : FVec Ideal S4x4 .f32 :=
  uitofp .f32 (cmpi .eq (addi (iotaInDim S4x4 32 0) (broadcastInDim S4x4 ![] bcast_S_S4x4 (constantI S_ 32 0#32))) (iotaInDim S4x4 32 1))

/-- The comparison of the two counters, as a bit. -/
theorem eye_bit : ∀ q p : Fin 4, IntOp.cmpi .eq (IntOp.addi (BitVec.ofNat 32 q.val) 0#32) (BitVec.ofNat 32 p.val)
    = if q.val = p.val then 1#1 else 0#1 := by decide

theorem eyeV_apply (q p : Fin 4) : eyeV (ix2 q p) = eye q.val p.val := by
  show (((IntOp.cmpi .eq (IntOp.addi (BitVec.ofNat 32 q.val) 0#32) (BitVec.ofNat 32 p.val)).toNat : ℝ) : EReal) = eye q.val p.val
  rw [eye_bit]
  unfold eye
  split_ifs <;> simp

variable (m : (ℓ : Loc nD τ sig) → Buf (Elt Ideal) ℓ) (c : Dev nD)

/-! ## The arrays as the launch finds them -/

theorem V_rows : (V m c main_v0 : S512x256.Idx → EReal)
    = shapeCast S512x256 (m ((c : Thread nD τ).loc main_arg0)) shapeCasts_S2048x64_S512x256 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem V_diag1 : (V m c main_v7 : S128x256.Idx → EReal)
    = shapeCast S128x256 (mulf
        (broadcastInDim S4x32x4x64 ![0, 1, 2, 3] bcast_S4x1x4x1_S4x32x4x64_0_1_2_3 (broadcastInDim S4x1x4x1 ![0, 2] bcast_S4x4_S4x1x4x1_0_2 eyeV))
        (broadcastInDim S4x32x4x64 ![0, 1, 2, 3] bcast_S1x32x1x64_S4x32x4x64_0_1_2_3 (broadcastInDim S1x32x1x64 ![1, 3] bcast_S32x64_S1x32x1x64_1_3 (m ((c : Thread nD τ).loc main_arg1)))))
      shapeCasts_S4x32x4x64_S128x256 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem V_tile1 : (V m c main_v11 : S1x128.Idx → EReal)
    = shapeCast S1x128 (shapeCast S128 (broadcastInDim S4x32 ![0, 1] bcast_S1x32_S4x32_0_1
        (shapeCast S1x32 (m ((c : Thread nD τ).loc main_arg2)) shapeCasts_S32_S1x32)) shapeCasts_S4x32_S128) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem V_diag2 : (V m c main_v18 : S4x128.Idx → EReal)
    = shapeCast S4x128 (mulf
        (broadcastInDim S4x1x4x32 ![0, 1, 2, 3] bcast_S4x1x4x1_S4x1x4x32_0_1_2_3 (broadcastInDim S4x1x4x1 ![0, 2] bcast_S4x4_S4x1x4x1_0_2 eyeV))
        (broadcastInDim S4x1x4x32 ![0, 1, 2, 3] bcast_S1x1x1x32_S4x1x4x32_0_1_2_3 (broadcastInDim S1x1x1x32 ![1, 3] bcast_S1x32_S1x1x1x32_1_3 (m ((c : Thread nD τ).loc main_arg3)))))
      shapeCasts_S4x1x4x32_S4x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem V_bias2 : (V m c main_v19 : S1x1.Idx → EReal)
    = shapeCast S1x1 (m ((c : Thread nD τ).loc main_arg4)) shapeCasts_S1_S1x1 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-! ## Read at coordinates -/

/-- Row `R`, column `x` of the re-laid `h` is `h[4R + x/64, x mod 64]`. -/
theorem rows_read (R : Fin 512) (x : Fin 256) :
    (V m c main_v0 : S512x256.Idx → EReal) (ix2 R x) = rows4 (m ((c : Thread nD τ).loc main_arg0)) R x := by
  rw [V_rows]
  unfold rows4
  refine shapeCast_apply (s := S2048x64) (t := S512x256) _ _ _ _ ?_
  rw [Shape.rowMajor_val_two, Shape.rowMajor_val_two]
  have := R.isLt
  have := x.isLt
  show (4 * R.val + x.val / 64) * 64 + x.val % 64 = R.val * 256 + x.val
  omega

/-- Row `y`, column `x` of the first block-diagonal matrix. -/
theorem diag1_read (y : Fin 128) (x : Fin 256) :
    (V m c main_v7 : S128x256.Idx → EReal) (ix2 y x) = diag1 (m ((c : Thread nD τ).loc main_arg1)) y x := by
  have hy := y.isLt
  have hx := x.isLt
  rw [V_diag1]
  unfold diag1
  refine (shapeCast_apply _ _ _ (ix4 (⟨y.val / 32, by omega⟩ : Fin 4) (⟨y.val % 32, Nat.mod_lt _ (by decide)⟩ : Fin 32)
    (⟨x.val / 64, by omega⟩ : Fin 4) (⟨x.val % 64, Nat.mod_lt _ (by decide)⟩ : Fin 64)) ?_).trans ?_
  · rw [Shape.rowMajor_val_four, Shape.rowMajor_val_two]
    show ((y.val / 32 * 32 + y.val % 32) * 4 + x.val / 64) * 64 + x.val % 64 = y.val * 256 + x.val
    omega
  rw [mulf_apply]
  congr 1
  · refine (broadcastInDim_apply _ _ _ _ (ix4 (⟨y.val / 32, by omega⟩ : Fin 4) (0 : Fin 1) (⟨x.val / 64, by omega⟩ : Fin 4) (0 : Fin 1)) (fun a => ?_)).trans ?_
    · match a with
      | ⟨0, _⟩ => rfl
      | ⟨1, _⟩ => rfl
      | ⟨2, _⟩ => rfl
      | ⟨3, _⟩ => rfl
    refine (broadcastInDim_apply _ _ _ _ (ix2 (⟨y.val / 32, by omega⟩ : Fin 4) (⟨x.val / 64, by omega⟩ : Fin 4)) (fun a => ?_)).trans ?_
    · match a with
      | ⟨0, _⟩ => rfl
      | ⟨1, _⟩ => rfl
    exact eyeV_apply _ _
  · refine (broadcastInDim_apply _ _ _ _ (ix4 (0 : Fin 1) (⟨y.val % 32, Nat.mod_lt _ (by decide)⟩ : Fin 32) (0 : Fin 1) (⟨x.val % 64, Nat.mod_lt _ (by decide)⟩ : Fin 64)) (fun a => ?_)).trans ?_
    · match a with
      | ⟨0, _⟩ => rfl
      | ⟨1, _⟩ => rfl
      | ⟨2, _⟩ => rfl
      | ⟨3, _⟩ => rfl
    refine broadcastInDim_apply _ _ _ _ _ (fun a => ?_)
    match a with
    | ⟨0, _⟩ => rfl
    | ⟨1, _⟩ => rfl

/-- Column `y` of the repeated bias row. -/
theorem tile1_read (y : Fin 128) :
    (V m c main_v11 : S1x128.Idx → EReal) (ix2 (0 : Fin 1) y) = tile1 (m ((c : Thread nD τ).loc main_arg2)) y := by
  have hy := y.isLt
  rw [V_tile1]
  unfold tile1
  refine (shapeCast_a_1a_apply _ _ (0 : Fin 1) y).trans ?_
  refine (shapeCast_apply _ _ _ (ix2 (⟨y.val / 32, by omega⟩ : Fin 4) (⟨y.val % 32, Nat.mod_lt _ (by decide)⟩ : Fin 32)) ?_).trans ?_
  · rw [Shape.rowMajor_val_two, Shape.rowMajor_val_one]
    show y.val / 32 * 32 + y.val % 32 = y.val
    omega
  refine (broadcastInDim_apply _ _ _ _ (ix2 (0 : Fin 1) (⟨y.val % 32, Nat.mod_lt _ (by decide)⟩ : Fin 32)) (fun a => ?_)).trans ?_
  · match a with
    | ⟨0, _⟩ => rfl
    | ⟨1, _⟩ => rfl
  exact shapeCast_a_1a_apply _ _ (0 : Fin 1) _

/-- Row `o`, column `y` of the second block-diagonal matrix. -/
theorem diag2_read (o : Fin 4) (y : Fin 128) :
    (V m c main_v18 : S4x128.Idx → EReal) (ix2 o y) = diag2 (m ((c : Thread nD τ).loc main_arg3)) o y := by
  have hy := y.isLt
  have ho := o.isLt
  rw [V_diag2]
  unfold diag2
  refine (shapeCast_apply _ _ _ (ix4 o (0 : Fin 1) (⟨y.val / 32, by omega⟩ : Fin 4) (⟨y.val % 32, Nat.mod_lt _ (by decide)⟩ : Fin 32)) ?_).trans ?_
  · rw [Shape.rowMajor_val_four, Shape.rowMajor_val_two]
    show ((o.val * 1 + 0) * 4 + y.val / 32) * 32 + y.val % 32 = o.val * 128 + y.val
    omega
  rw [mulf_apply]
  congr 1
  · refine (broadcastInDim_apply _ _ _ _ (ix4 o (0 : Fin 1) (⟨y.val / 32, by omega⟩ : Fin 4) (0 : Fin 1)) (fun a => ?_)).trans ?_
    · match a with
      | ⟨0, _⟩ => rfl
      | ⟨1, _⟩ => rfl
      | ⟨2, _⟩ => rfl
      | ⟨3, _⟩ => rfl
    refine (broadcastInDim_apply _ _ _ _ (ix2 o (⟨y.val / 32, by omega⟩ : Fin 4)) (fun a => ?_)).trans ?_
    · match a with
      | ⟨0, _⟩ => rfl
      | ⟨1, _⟩ => rfl
    exact eyeV_apply _ _
  · refine (broadcastInDim_apply _ _ _ _ (ix4 (0 : Fin 1) (0 : Fin 1) (0 : Fin 1) (⟨y.val % 32, Nat.mod_lt _ (by decide)⟩ : Fin 32)) (fun a => ?_)).trans ?_
    · match a with
      | ⟨0, _⟩ => rfl
      | ⟨1, _⟩ => rfl
      | ⟨2, _⟩ => rfl
      | ⟨3, _⟩ => rfl
    refine broadcastInDim_apply _ _ _ _ _ (fun a => ?_)
    match a with
    | ⟨0, _⟩ => rfl
    | ⟨1, _⟩ => rfl

/-- The one entry of the scalar bias. -/
theorem bias2_read :
    (V m c main_v19 : S1x1.Idx → EReal) (ix2 (0 : Fin 1) (0 : Fin 1)) = m ((c : Thread nD τ).loc main_arg4) (ix1 (0 : Fin 1)) := by
  rw [V_bias2]
  exact shapeCast_a_1a_apply _ _ (0 : Fin 1) (0 : Fin 1)

end Cert.PairNet.Operands

end
-- ==== Proof.KernelValue.lean ====
/-
  From blocks to the array. The grid has 16 × 16 points; point `t` is the pair `(t / 16, t mod 16)`. It reads rows
  `128·(t/16) …` of `h`, packed rows `32·(t mod 16) …` of the re-laid `h`, the four small arrays whole, and writes block
  `(t/16, t mod 16)` of the 2048 × 2048 output. What it writes is that block of the network's result array (the body's stored
  value, `Body.pay_block`, with the host-prepared arrays read by `Operands`); the 256 blocks tile the output, the block holding
  `(i, j)` being the one of point `(i / 128)·16 + j / 128`; so the output ends as the result array.
-/
import proofs.«145179_j89601607729551_2_alg».proof.Proof.Gen.KernelIdeal.Value
import proofs.«145179_j89601607729551_2_alg».proof.Proof.KernelBody
import proofs.«145179_j89601607729551_2_alg».proof.Proof.KernelOperands

set_option maxRecDepth 16384

noncomputable section

namespace Cert.PairNet.Blocks

open Cert.KernelIdeal Cert.KernelIdeal.Gen Cert.KernelIdeal.Value Idealize.ShloMosaic Idealize.ShloMosaic.TcCoe Idealize.SL.Sem
  Idealize.ShloMosaic.ValueIdx Cert.PairNet
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the row-block of `h` and of the output is `t / 16`, the packed-row block and the
    output's column block `t mod 16`, the other windows stay at block zero. -/
theorem index_maps : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 16 ∧ win0_6.index t (1 : Fin 2) = t.val % 16 :=
  (by decide +kernel : ∀ t : Fin grid0.N, _)

/-- The network's result of the five argument arrays as launched on core `c`. -/
abbrev target (c : Dev nD) : Mat 2048 2048 :=
  result (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the result array. -/
theorem flushed_eq (c : Dev nD) (t : Fin cfg0.N) :
    (dats m 0 c).flushed 6 t = ((cfg0.win 6).blk t).view.read (Elt Ideal) (target m c) := by
  rw [Value.flushed6]
  unfold out0_6
  rw [View.canon_unit_zero zero_offsets]
  simp only [View.ld_unit_zero (S := S128x64) zero_offsets, View.ld_unit_zero (S := S32x256) zero_offsets,
    View.ld_unit_zero (S := S128x256) zero_offsets, View.ld_unit_zero (S := S1x128) zero_offsets,
    View.ld_unit_zero (S := S4x128) zero_offsets, View.ld_unit_zero (S := S1x1) zero_offsets]
  obtain ⟨e00, e01, e10, e11, e20, e21, e30, e31, e40, e41, e50, e51, e60, e61⟩ := index_maps t
  have ht : t.val < 256 := t.isLt
  funext j
  obtain ⟨a, cc, rfl⟩ : ∃ (a cc : Fin 128), j = ix2 a cc := ⟨j 0, j 1, eq_ix2 j⟩
  have hV0 : (V m c main_arg0 : S2048x64.Idx → EReal) = m ((c : Thread nD τ).loc main_arg0) := V_main_arg0 m c
  have h0 : ∀ (a : Fin 128) (d : Fin 64), iblk m c 0 t (ix2 a d)
      = m ((c : Thread nD τ).loc main_arg0) (ix2 ⟨128 * (t.val / 16) + a.val, by have := a.isLt; omega⟩ d) := by
    intro a d
    show (V m c main_arg0 : S2048x64.Idx → EReal) (((cfg0.win 0).blk t).view.emb (ix2 a d)) = _
    rw [hV0]
    refine congrArg _ (funext fun ax => Fin.ext ?_)
    match ax with
    | ⟨0, _⟩ => show win0_0.index t (0 : Fin 2) * 128 + 1 * a.val = 128 * (t.val / 16) + a.val; omega
    | ⟨1, _⟩ => show win0_0.index t (1 : Fin 2) * 64 + 1 * d.val = d.val; omega
  have h1 : ∀ (r : Fin 32) (x : Fin 256), iblk m c 1 t (ix2 r x)
      = rows4 (m ((c : Thread nD τ).loc main_arg0)) ⟨32 * (t.val % 16) + r.val, by have := r.isLt; omega⟩ x := by
    intro r x
    refine Eq.trans ?_ (Operands.rows_read m c _ x)
    show (V m c main_v0 : S512x256.Idx → EReal) (((cfg0.win 1).blk t).view.emb (ix2 r x)) = _
    refine congrArg _ (funext fun ax => Fin.ext ?_)
    match ax with
    | ⟨0, _⟩ => show win0_1.index t (0 : Fin 2) * 32 + 1 * r.val = 32 * (t.val % 16) + r.val; omega
    | ⟨1, _⟩ => show win0_1.index t (1 : Fin 2) * 256 + 1 * x.val = x.val; omega
  have h2 : ∀ (y : Fin 128) (x : Fin 256), iblk m c 2 t (ix2 y x) = diag1 (m ((c : Thread nD τ).loc main_arg1)) y x := by
    intro y x
    refine Eq.trans ?_ (Operands.diag1_read m c y x)
    show (V m c main_v7 : S128x256.Idx → EReal) (((cfg0.win 2).blk t).view.emb (ix2 y x)) = _
    refine congrArg _ (funext fun ax => Fin.ext ?_)
    match ax with
    | ⟨0, _⟩ => show win0_2.index t (0 : Fin 2) * 128 + 1 * y.val = y.val; omega
    | ⟨1, _⟩ => show win0_2.index t (1 : Fin 2) * 256 + 1 * x.val = x.val; omega
  have h3 : ∀ y : Fin 128, iblk m c 3 t (ix2 (0 : Fin 1) y) = tile1 (m ((c : Thread nD τ).loc main_arg2)) y := by
    intro y
    refine Eq.trans ?_ (Operands.tile1_read m c y)
    show (V m c main_v11 : S1x128.Idx → EReal) (((cfg0.win 3).blk t).view.emb (ix2 (0 : Fin 1) y)) = _
    refine congrArg _ (funext fun ax => Fin.ext ?_)
    match ax with
    | ⟨0, _⟩ => show win0_3.index t (0 : Fin 2) * 1 + 1 * 0 = 0; omega
    | ⟨1, _⟩ => show win0_3.index t (1 : Fin 2) * 128 + 1 * y.val = y.val; omega
  have h4 : ∀ (o : Fin 4) (y : Fin 128), iblk m c 4 t (ix2 o y) = diag2 (m ((c : Thread nD τ).loc main_arg3)) o y := by
    intro o y
    refine Eq.trans ?_ (Operands.diag2_read m c o y)
    show (V m c main_v18 : S4x128.Idx → EReal) (((cfg0.win 4).blk t).view.emb (ix2 o y)) = _
    refine congrArg _ (funext fun ax => Fin.ext ?_)
    match ax with
    | ⟨0, _⟩ => show win0_4.index t (0 : Fin 2) * 4 + 1 * o.val = o.val; omega
    | ⟨1, _⟩ => show win0_4.index t (1 : Fin 2) * 128 + 1 * y.val = y.val; omega
  have h5 : iblk m c 5 t (ix2 (0 : Fin 1) (0 : Fin 1)) = m ((c : Thread nD τ).loc main_arg4) (ix1 (0 : Fin 1)) := by
    refine Eq.trans ?_ (Operands.bias2_read m c)
    show (V m c main_v19 : S1x1.Idx → EReal) (((cfg0.win 5).blk t).view.emb (ix2 (0 : Fin 1) (0 : Fin 1))) = _
    refine congrArg _ (funext fun ax => Fin.ext ?_)
    match ax with
    | ⟨0, _⟩ => show win0_5.index t (0 : Fin 2) * 1 + 1 * 0 = 0; omega
    | ⟨1, _⟩ => show win0_5.index t (1 : Fin 2) * 1 + 1 * 0 = 0; omega
  show k0_pay1 (iblk m c 0 t) (iblk m c 1 t) (iblk m c 2 t) (iblk m c 3 t) (iblk m c 4 t) (iblk m c 5 t) (ix2 a cc)
    = target m c (((cfg0.win 6).blk t).view.emb (ix2 a cc))
  refine (Body.pay_block (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4))
    (t.val / 16) (t.val % 16) (by omega) (by omega) h0 h1 h2 h3 h4 h5 a cc).trans ?_
  refine congrArg (target m c) (funext fun ax => Fin.ext ?_)
  match ax with
  | ⟨0, _⟩ => show 128 * (t.val / 16) + a.val = win0_6.index t (0 : Fin 2) * 128 + 1 * a.val; omega
  | ⟨1, _⟩ => show 128 * (t.val % 16) + cc.val = win0_6.index t (1 : Fin 2) * 128 + 1 * cc.val; omega

/-- An index of the output is in point `t`'s block iff each coordinate is in the block's range on its axis. -/
theorem mem_blk (t : Fin cfg0.N) (i : S2048x2048.Idx) :
    i ∈ ((cfg0.win 6).blk t).view.set ↔ ∀ a : Fin 2, win0_6.index t a * S128x128.size a ≤ (i a).val ∧ (i a).val < win0_6.index t a * S128x128.size a + S128x128.size a := by
  show i ∈ ((View.whole main_v20).slice (win0_6.rect t)).set ↔ _
  rw [View.set_slice_whole, Rect.mem_set_unit]
  exact Iff.rfl

/-- Every index of the output lies in the block of the point `(i₀ / 128)·16 + i₁ / 128`. -/
theorem cover (i : S2048x2048.Idx) : ∃ t : Fin cfg0.N, (cfg0.win 6).flush t = true ∧ i ∈ ((cfg0.win 6).blk t).view.set := by
  have hi0 : (i 0).val < 2048 := (i 0).isLt
  have hi1 : (i 1).val < 2048 := (i 1).isLt
  have hN : cfg0.N = 256 := N_0
  refine ⟨⟨(i 0).val / 128 * 16 + (i 1).val / 128, by rw [hN]; omega⟩, flush0_6 _, ?_⟩
  rw [mem_blk]
  obtain ⟨-, -, -, -, -, -, -, -, -, -, -, -, e60, e61⟩ := index_maps ⟨(i 0).val / 128 * 16 + (i 1).val / 128, by rw [hN]; omega⟩
  intro a
  match a with
  | ⟨0, _⟩ =>
    show win0_6.index _ (0 : Fin 2) * 128 ≤ (i 0).val ∧ (i 0).val < win0_6.index _ (0 : Fin 2) * 128 + 128
    rw [e60]
    show ((i 0).val / 128 * 16 + (i 1).val / 128) / 16 * 128 ≤ (i 0).val ∧ (i 0).val < ((i 0).val / 128 * 16 + (i 1).val / 128) / 16 * 128 + 128
    omega
  | ⟨1, _⟩ =>
    show win0_6.index _ (1 : Fin 2) * 128 ≤ (i 1).val ∧ (i 1).val < win0_6.index _ (1 : Fin 2) * 128 + 128
    rw [e61]
    show ((i 0).val / 128 * 16 + (i 1).val / 128) % 16 * 128 ≤ (i 1).val ∧ (i 1).val < ((i 0).val / 128 * 16 + (i 1).val / 128) % 16 * 128 + 128
    omega

/-- The output array after the run is the result array. -/
theorem final (c : Dev nD) : (dats m 0 c).arrAt 6 cfg0.N = target m c :=
  (dats m 0 c).arrAt_eq_of_cover 6 (target m c) (fun t _ => flushed_eq m c t) cover

/-- The kernel's run: every weakly fair execution terminates with the output at the result array of the arguments, the
    arguments unchanged. -/
theorem run : θ_run defs (onTc (τ := τ) (main (F := Ideal))) ⟨m, fun _ => 0, ρ⟩ fun r => ∀ c : Dev nD,
      r.2.mem ((c : Thread nD τ).loc main_v20) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.PairNet.Blocks

end
-- ==== Proof.RefIsResult.lean ====
/-
  The reference program's result, stage by stage, is the network of PairNetSpec: the two broadcasts of `h` put
  `h[j,d]` and `h[i,d]` at `(i, j, d)`, their difference under the absolute value is `adiff`, the first contraction
  sums it against row `k` of `W1` over `d`, the bias row is `b1[k]`, compare–multiply–select is the leaky rectifier,
  the second contraction sums the hidden units against `W2`'s one row, `b2[0]` is added, the trailing unit axis is
  dropped, and negate–exponential–add–divide is the squashing function. Each stage is read at an index given by
  coordinates through the generated read lemmas; the only arithmetic is on indices.
-/
import proofs.«145179_j89601607729551_2_alg».proof.Proof.Gen.ReferenceIdeal.Read
import proofs.«145179_j89601607729551_2_alg».proof.Proof.PairNetSpec

noncomputable section

namespace Cert.PairNet.Ref

open Cert.ReferenceIdeal Cert.ReferenceIdeal.Read Idealize.ShloMosaic Idealize.ShloMosaic.ValueIdx Cert.PairNet

variable (h : Mat 2048 64) (W1 : Mat 32 64) (b1 : Vect 32) (W2 : Mat 1 32) (b2 : Vect 1)

/-- The absolute difference at `(i, j, d)`. -/
theorem diff_apply (i j : Fin 2048) (d : Fin 64) :
    val_main_v5 (F := Ideal) h (ix3 i j d) = adiff (h (ix2 j d)) (h (ix2 i d)) := by
  rw [val_main_v5_apply, val_main_v4_apply, val_main_v2_apply, val_main_v3_apply, val_main_v0_apply, val_main_v1_apply]
  have e0 : idx_main_v0 (idx_main_v2 (ix3 i j d)) = ix2 j d :=
    funext fun a => Fin.ext (by match a with | ⟨0, _⟩ => rfl | ⟨1, _⟩ => rfl)
  have e1 : idx_main_v1 (idx_main_v3 (ix3 i j d)) = ix2 i d :=
    funext fun a => Fin.ext (by match a with | ⟨0, _⟩ => rfl | ⟨1, _⟩ => rfl)
  rw [e0, e1]
  rfl

/-- The first layer before the rectifier at `(i, j, k)`. -/
theorem pre_apply (i j : Fin 2048) (k : Fin 32) :
    val_main_v9 (F := Ideal) h W1 b1 (ix3 i j k)
      = (∑ d : Fin 64, adiff (h (ix2 j d)) (h (ix2 i d)) * W1 (ix2 k d)) + b1 (ix1 k) := by
  rw [val_main_v9_apply, val_main_v6_apply, val_main_v8_apply, val_main_v7_apply]
  have el : ∀ d : Fin 64, lidx_main_v6 (ix3 i j k) d = ix3 i j d := fun d =>
    funext fun a => Fin.ext (by match a with | ⟨0, _⟩ => rfl | ⟨1, _⟩ => rfl | ⟨2, _⟩ => rfl)
  have er : ∀ d : Fin 64, ridx_main_v6 (ix3 i j k) d = ix2 k d := fun d =>
    funext fun a => Fin.ext (by match a with | ⟨0, _⟩ => rfl | ⟨1, _⟩ => rfl)
  have e7 : idx_main_v7 (idx_main_v8 (ix3 i j k)) = ix1 k :=
    funext fun a => Fin.ext (by match a with | ⟨0, _⟩ => rfl)
  simp only [el, er, e7, diff_apply]
  rfl

/-- The hidden unit at `(i, j, k)`. -/
theorem hidden_apply (i j : Fin 2048) (k : Fin 32) :
    val_main_v14 (F := Ideal) h W1 b1 (ix3 i j k) = hidden h W1 b1 i j k := by
  rw [val_main_v14_apply, val_main_v11_apply, val_main_v13_apply, val_main_v10_apply, val_main_v12_apply,
    val_main_cst_apply, val_main_cst_0_apply, pre_apply]
  rfl

/-- The energy at `(i, j, 0)`. -/
theorem energy_apply (i j : Fin 2048) :
    val_main_v18 (F := Ideal) h W1 b1 W2 b2 (ix3 i j (0 : Fin 1)) = energy h W1 b1 W2 b2 i j := by
  rw [val_main_v18_apply, val_main_v15_apply, val_main_v17_apply, val_main_v16_apply]
  have el : ∀ k : Fin 32, lidx_main_v15 (ix3 i j (0 : Fin 1)) k = ix3 i j k := fun k =>
    funext fun a => Fin.ext (by match a with | ⟨0, _⟩ => rfl | ⟨1, _⟩ => rfl | ⟨2, _⟩ => rfl)
  have er : ∀ k : Fin 32, ridx_main_v15 (ix3 i j (0 : Fin 1)) k = ix2 (0 : Fin 1) k := fun k =>
    funext fun a => Fin.ext (by match a with | ⟨0, _⟩ => rfl | ⟨1, _⟩ => rfl)
  have e16 : idx_main_v16 (idx_main_v17 (ix3 i j (0 : Fin 1))) = ix1 (0 : Fin 1) :=
    funext fun a => Fin.ext (by match a with | ⟨0, _⟩ => rfl)
  simp only [el, er, e16, hidden_apply]
  rfl

/-- The result at `(i, j)`. -/
theorem result_apply (i j : Fin 2048) :
    val_main_v25 (F := Ideal) h W1 b1 W2 b2 (ix2 i j) = squash (energy h W1 b1 W2 b2 i j) := by
  rw [val_main_v25_apply, val_main_v24_apply, val_main_cst_2_apply, val_main_v23_apply, val_main_v22_apply,
    val_main_cst_1_apply, val_main_v21_apply, val_main_v20_apply, val_main_v19_apply]
  have e19 : idx_main_v19 (ix2 i j) = ix3 i j (0 : Fin 1) :=
    funext fun a => Fin.ext (by
      have hi := i.isLt
      have hj := j.isLt
      match a with
      | ⟨0, _⟩ => show (i.val * 2048 + j.val) / 2048 = i.val; omega
      | ⟨1, _⟩ => show (i.val * 2048 + j.val) / 1 % 2048 = j.val; omega
      | ⟨2, _⟩ => rfl)
  rw [e19, energy_apply]
  rfl

/-- The reference's last stage is the network's result array. -/
theorem ref_eq : val_main_v25 (F := Ideal) h W1 b1 W2 b2 = result h W1 b1 W2 b2 := by
  funext i
  obtain ⟨p, q, rfl⟩ : ∃ (p q : Fin 2048), i = ix2 p q := ⟨i 0, i 1, eq_ix2 i⟩
  exact result_apply h W1 b1 W2 b2 p q

end Cert.PairNet.Ref

end
-- ==== Proof.lean ====
/-
  The claim: the packed all-pairs similarity kernel and its plain reference compute one function over the extended reals.

  For the 2048 rows of `h` both programs return `h` itself and the 2048 × 2048 array whose entry `(i, j)` is
    1 / (1 + exp (−(Σ_{k<32} leaky (Σ_{d<64} |h[j,d] − h[i,d]| · W1[k,d] + b1[k]) · W2[0,k] + b2[0]))).
  The reference computes it as written (Proof/RefIsResult.lean, over the generated read lemmas). The kernel tiles the output in
  128 × 128 blocks; for a block it lays four consecutive rows of `h` side by side, takes absolute differences against a row
  repeated four times, and multiplies by block-diagonal copies of the two weight matrices, so that one sum over 256 (or 128)
  packed columns keeps exactly one diagonal block — every other term is a product with zero, which is zero for every
  extended real — and equals the plain sum over 64 (or 32) columns (Proof/PairNetSpec.lean `packed_eq`; the two orders of the
  difference agree under the absolute value, `ereal_abs_sub_comm`). Proof/KernelBody.lean reads the kernel body's stored value at an
  index, Proof/KernelOperands.lean the arrays the host prepares before the launch, Proof/KernelValue.lean assembles the blocks
  into the whole output. No step needs the inputs to be finite. The three frames are the generated ones; the idealization
  rewrote no operation, so `preserves` is trivial.
-/
import proofs.«145179_j89601607729551_2_alg».proof.Defs
import proofs.«145179_j89601607729551_2_alg».proof.Proof.Gen.Kernel
import proofs.«145179_j89601607729551_2_alg».proof.Proof.Gen.Kernel.Skeleton
import proofs.«145179_j89601607729551_2_alg».proof.Proof.Gen.Kernel.Launch
import proofs.«145179_j89601607729551_2_alg».proof.Proof.Gen.Kernel.Points
import proofs.«145179_j89601607729551_2_alg».proof.Proof.Gen.Kernel.Frame
import proofs.«145179_j89601607729551_2_alg».proof.Proof.Gen.KernelIdeal
import proofs.«145179_j89601607729551_2_alg».proof.Proof.Gen.KernelIdeal.Skeleton
import proofs.«145179_j89601607729551_2_alg».proof.Proof.Gen.KernelIdeal.Launch
import proofs.«145179_j89601607729551_2_alg».proof.Proof.Gen.KernelIdeal.Points
import proofs.«145179_j89601607729551_2_alg».proof.Proof.Gen.KernelIdeal.Frame
import proofs.«145179_j89601607729551_2_alg».proof.Proof.Gen.ReferenceIdeal
import proofs.«145179_j89601607729551_2_alg».proof.Proof.Gen.Pre_finite_inputs
import proofs.«145179_j89601607729551_2_alg».proof.Proof.Gen.KernelIdeal.Value
import proofs.«145179_j89601607729551_2_alg».proof.Proof.Gen.ReferenceIdeal.Run
import proofs.«145179_j89601607729551_2_alg».proof.Proof.Gen.ReferenceIdeal.Read
import proofs.«145179_j89601607729551_2_alg».proof.Proof.KernelValue
import proofs.«145179_j89601607729551_2_alg».proof.Proof.RefIsResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both idealized programs end with `h` and the network's result array of arguments that agree. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.PairNet.Blocks.target m c, ?_, ?_⟩
  · exact (θ_run Cert.KernelIdeal.defs _ _).mono (fun r h c => ⟨(h c).2.1, (h c).1, (h c).2⟩) (Cert.PairNet.Blocks.run m ρ)
  · refine (θ_run Cert.ReferenceIdeal.defs _ _).mono (fun r h c => ⟨(h c).1.trans (hagree c).1, (h c).2.1.trans ?_, (h c).2.2⟩)
      (Cert.ReferenceIdeal.Value.run (F := Ideal) m' ρ')
    rw [Cert.ReferenceIdeal.Read.val_main_v25_eq, Cert.PairNet.Ref.ref_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
